-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S1024x4096 : Shape := ⟨2, ![1024, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S8192x1024 .f32) (main_arg1 : FVec F S4096x1024 .f32) (main_arg2 : FVec F S1024x4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S8192x1024 : Shape := ⟨2, ![8192, 1024]⟩
abbrev S4096x1024 : Shape := ⟨2, ![4096, 1024]⟩
abbrev S1024x4096 : Shape := ⟨2, ![1024, 4096]⟩
abbrev S_ : Shape := ⟨0, ![]⟩
abbrev S1024 : Shape := ⟨1, ![1024]⟩
abbrev S1x1024 : Shape := ⟨2, ![1, 1024]⟩
abbrev S512x1024 : Shape := ⟨2, ![512, 1024]⟩
abbrev S512x4096 : Shape := ⟨2, ![512, 4096]⟩

abbrev nBuf : Space → Nat
  | .hbm => 18
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S1024x4096, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S1024x4096, .bf16⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S1024x4096, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst_0 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst_1 : Ref sig .tc := ⟨.hbm, 11, rfl⟩
abbrev main_call0_v6 : Ref sig .tc := ⟨.hbm, 12, rfl⟩
abbrev main_call0_cst_2 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4096x1024 : S_.BroadcastsInDim S4096x1024 (![] : Fin 0 → Fin S4096x1024.rank)
  bitsLt_bf16_f32 : FTy.bits .bf16 < FTy.bits .f32
  bcast_S_S1024x4096 : S_.BroadcastsInDim S1024x4096 (![] : Fin 0 → Fin S1024x4096.rank)
  reducesTo_S1024x4096_S1024_d1 : S1024x4096.ReducesTo [1] S1024
  h_S_ : 0 < S_.numel
  bcast_S_S1024 : S_.BroadcastsInDim S1024 (![] : Fin 0 → Fin S1024.rank)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S4096x1024_S512x4096_1_1_0_0_n_n_wf : DotDims.WF S512x1024 S4096x1024 S512x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v9) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S1024x4096 : Shape := ⟨2, ![1024, 4096]⟩
abbrev S512x1024 : Shape := ⟨2, ![512, 1024]⟩
abbrev S512x4096 : Shape := ⟨2, ![512, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .f32⟩
  | .local _ .vmem, ⟨3, _⟩ => ⟨S4096x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4096x1024_S1024x4096_1_0 : S4096x1024.Transposes [1, 0] S1024x4096
  transposes_S1024x4096_S4096x1024_1_0 : S1024x4096.Transposes [1, 0] S4096x1024
  inb_S512x1024_S512x1024_0_0 : ∀ a, (![0, 0] : Fin 2 → Nat) a + S512x1024.size a ≤ S512x1024.size a
  h_S512x1024 : 0 < S512x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  dot_S512x1024_S1024x4096_S512x4096_1_0_0_1_n_n_wf : DotDims.WF S512x1024 S1024x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .f32 = 32 ∨ (Rect.block (s := S1024x4096) S1024x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .f32 = 32 ∨ (Rect.block (s := S4096x1024) S4096x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Spec.lean ====
/-
  The two ways of writing one entry of the two-layer network, as exact (extended real) arithmetic, and the law that joins them.

  With σ(z) = ½ · tanh(½ · z) + ½, the network's entry for an input row x, first-layer weights w₁ and one row w₂ of the
  second-layer weights is σ(∑ₖ σ(∑ⱼ xⱼ · w₁ₖⱼ) · w₂ₖ)  (`sigmoidEntry`).
  The folded form moves the halves into the weights: with Tₖ = tanh(∑ⱼ xⱼ · (½ · w₁ₖⱼ)) it is
  ½ · tanh(∑ₖ Tₖ · (¼ · w₂ₖ) + ¼ · ∑ₖ w₂ₖ) + ½  (`foldedEntry`).
  On real (finite) data the two agree: ∑ⱼ xⱼ · (½ · w₁ₖⱼ) = ½ · ∑ⱼ xⱼ · w₁ₖⱼ, and
  ½ · ∑ₖ (½ · Tₖ + ½) · w₂ₖ = ∑ₖ Tₖ · (¼ · w₂ₖ) + ¼ · ∑ₖ w₂ₖ  — distributivity, which is why finiteness is needed.
-/
import Idealize.ShloMosaic.PureOps.Ideal
import Idealize.ShloMosaic.PureOps.Ideal.Laws

noncomputable section

open scoped BigOperators

namespace Cert.MlpSpec

open Idealize.ShloMosaic

/-- The single-precision pattern of one half denotes the real ½. -/
theorem half_eq : Ideal.ofBits .f32 0x3F000000#32 = ((1 / 2 : ℝ) : EReal) := by
  simp [Ideal.ofBits, Ideal.ieee, -EReal.coe_mul]; norm_num

/-- The single-precision pattern of one quarter denotes the real ¼. -/
theorem quarter_eq : Ideal.ofBits .f32 0x3E800000#32 = ((1 / 4 : ℝ) : EReal) := by
  simp [Ideal.ofBits, Ideal.ieee, -EReal.coe_mul]; norm_num

/-- One half and one quarter, as the programs spell them. -/
abbrev half : EReal := Ideal.ofBits .f32 0x3F000000#32
abbrev quarter : EReal := Ideal.ofBits .f32 0x3E800000#32

/-- An entry of the network in the folded form: the halves of both sigmoids moved into the weights. -/
def foldedEntry {J K : Nat} (x : Fin J → EReal) (w1 : Fin K → Fin J → EReal) (w2 : Fin K → EReal) : EReal :=
  half * Ideal.tanh ((∑ k : Fin K, Ideal.tanh (∑ j : Fin J, x j * (half * w1 k j)) * (quarter * w2 k)) + quarter * ∑ k : Fin K, w2 k) + half

/-- An entry of the network as two sigmoids, each written ½ · tanh(½ · z) + ½. -/
def sigmoidEntry {J K : Nat} (x : Fin J → EReal) (w1 : Fin K → Fin J → EReal) (w2 : Fin K → EReal) : EReal :=
  half * Ideal.tanh (half * ∑ k : Fin K, (half * Ideal.tanh (half * ∑ j : Fin J, x j * w1 k j) + half) * w2 k) + half

/-- A finite sum of reals, read in the extended reals, is the sum of the readings. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The law on the reals. -/
theorem folded_eq_sigmoid_real {J K : Nat} (x : Fin J → ℝ) (w1 : Fin K → Fin J → ℝ) (w2 : Fin K → ℝ) :
    (1 / 2 : ℝ) * Real.tanh ((∑ k : Fin K, Real.tanh (∑ j : Fin J, x j * ((1 / 2 : ℝ) * w1 k j)) * ((1 / 4 : ℝ) * w2 k)) + (1 / 4 : ℝ) * ∑ k : Fin K, w2 k) + (1 / 2 : ℝ)
      = (1 / 2 : ℝ) * Real.tanh ((1 / 2 : ℝ) * ∑ k : Fin K, ((1 / 2 : ℝ) * Real.tanh ((1 / 2 : ℝ) * ∑ j : Fin J, x j * w1 k j) + (1 / 2 : ℝ)) * w2 k) + (1 / 2 : ℝ) := by
  have inner : ∀ k : Fin K, ∑ j : Fin J, x j * ((1 / 2 : ℝ) * w1 k j) = (1 / 2 : ℝ) * ∑ j : Fin J, x j * w1 k j := fun k => by
    rw [Finset.mul_sum]; exact Finset.sum_congr rfl fun j _ => by ring
  have outer : (∑ k : Fin K, Real.tanh ((1 / 2 : ℝ) * ∑ j : Fin J, x j * w1 k j) * ((1 / 4 : ℝ) * w2 k)) + (1 / 4 : ℝ) * ∑ k : Fin K, w2 k
      = (1 / 2 : ℝ) * ∑ k : Fin K, ((1 / 2 : ℝ) * Real.tanh ((1 / 2 : ℝ) * ∑ j : Fin J, x j * w1 k j) + (1 / 2 : ℝ)) * w2 k := by
    rw [Finset.mul_sum, Finset.mul_sum, ← Finset.sum_add_distrib]
    exact Finset.sum_congr rfl fun k _ => by ring
  simp only [inner]
  rw [outer]

/-- THE LAW: on finite data the folded form and the two-sigmoid form of an entry agree. -/
theorem folded_eq_sigmoid {J K : Nat} (x : Fin J → EReal) (w1 : Fin K → Fin J → EReal) (w2 : Fin K → EReal)
    (hx : ∀ j, ∃ r : ℝ, x j = r) (hw1 : ∀ k j, ∃ r : ℝ, w1 k j = r) (hw2 : ∀ k, ∃ r : ℝ, w2 k = r) :
    foldedEntry x w1 w2 = sigmoidEntry x w1 w2 := by
  choose x' hx' using hx
  choose w1' hw1' using hw1
  choose w2' hw2' using hw2
  obtain rfl : x = fun j => ((x' j : ℝ) : EReal) := funext hx'
  obtain rfl : w1 = fun k j => ((w1' k j : ℝ) : EReal) := funext fun k => funext (hw1' k)
  obtain rfl : w2 = fun k => ((w2' k : ℝ) : EReal) := funext hw2'
  unfold foldedEntry sigmoidEntry half quarter
  simp only [half_eq, quarter_eq, ← EReal.coe_mul, coe_sum, Ideal.tanh_coe, ← EReal.coe_add]
  exact congrArg _ (folded_eq_sigmoid_real x' w1' w2')

end Cert.MlpSpec

end
-- ==== Proof.Finite.lean ====
/-
  What the precondition gives: every entry of the three argument arrays is a real number.

  The precondition says, of each array, that every entry's absolute value is below +∞; an extended real with that property
  is neither infinity, so it is a real.
-/
import proofs.«125964_g2000503857293157_pallasbulk_48_9_alg».proof.Pre_finite_inputs
import proofs.«125964_g2000503857293157_pallasbulk_48_9_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Hand

open Cert.Pre_finite_inputs Idealize.ShloMosaic Idealize.ShloMosaic.ValueIdx

instance : Subsingleton S_.Idx := ⟨fun a b => funext fun d => d.elim0⟩

/-- The single-precision pattern of +∞ denotes the top extended real. -/
theorem ofBits_inf : Ideal.ofBits .f32 0x7F800000#32 = ⊤ := by simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = r := by
  rw [ofBits_inf] at h
  induction x using EReal.rec with
  | bot => simp [Ideal.cmp] at h
  | top => simp [Ideal.cmp] at h
  | coe r => exact ⟨r, rfl⟩

/-- Under the precondition every entry of every argument is a real. -/
theorem finite_of_pre (x : FVec Ideal S8192x1024 .f32) (w1 : FVec Ideal S4096x1024 .f32) (w2 : FVec Ideal S1024x4096 .f32)
    (h : fn (F := Ideal) x w1 w2 = fun _ => 1#1) :
    (∀ i, ∃ r : ℝ, x i = r) ∧ (∀ i, ∃ r : ℝ, w1 i = r) ∧ (∀ i, ∃ r : ℝ, w2 i = r) := by
  have h0 := congrFun h ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.Pre_finite_inputs.Hand

end
-- ==== Proof.LibMatmulT.lean ====
/-
  A matrix product whose right operand is given transposed, read at an entry: the product of an M × K matrix with
  the transpose of an N × K matrix, accumulated into zero, has at (a, b) the inner product of row a of the first
  with row b of the second, over the extended reals.
-/
import Idealize.ShloMosaic.Lib.ValueIdx
import Idealize.ShloMosaic.PureOps.Ideal.Laws

noncomputable section

namespace Cert.LibMatmulT

open Idealize.ShloMosaic Idealize.ShloMosaic.ValueIdx

/-- The product of an `M × K` matrix by the transpose of an `N × K` one, accumulated into the zero splat, at entry
    `(a, b)`, is `∑ c, A (a, c) · B (b, c)` over the extended reals. -/
theorem matmul_transposedRhs_zero_apply {M K N : Nat} {φ₁ φ₂ : FTy} (prec : Option ContractPrecision)
    (A : FVec Ideal ⟨2, ![M, K]⟩ φ₁) (B : FVec Ideal ⟨2, ![N, K]⟩ φ₂) (a : Fin M) (b : Fin N) :
    FloatOps.matmul (DotDims.transposedRhs M K N) prec A B (constant (F := Ideal) ⟨2, ![M, N]⟩ .f32 0x00000000#32) (ix2 a b)
      = ∑ c : Fin K, A (ix2 a c) * B (ix2 b c) := by
  rw [Ideal.matmul_constant_zero_apply, ← Equiv.sum_comp (contrEquiv1 (DotDims.transposedRhs M K N) K rfl rfl).symm]
  refine Finset.sum_congr rfl fun c _ => ?_
  have c2 := contrEquiv1_symm_val (DotDims.transposedRhs M K N) K rfl rfl c
  have l2 : (DotDims.transposedRhs M K N).lhsIdx (ix2 a b) ((contrEquiv1 _ K rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs M K N).rhsIdx (ix2 a b) ((contrEquiv1 _ K rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibMatmulT

end
-- ==== Proof.KernelBlock.lean ====
/-
  What the folded network's body computes for one block of rows, read at one entry.

  The body takes a block X of 512 input rows, the pre-scaled weights A (4096 × 1024) and B (1024 × 4096) and the bias row b
  (1 × 1024). Entry (p, q) of what it stores is  ½ · tanh(∑ₖ tanh(∑ⱼ X(p,j) · A(k,j)) · B(q,k) + b(0,q)) + ½ :
  both products contract the LAST axis of both operands (no transpose is ever formed), the narrowing of formats changes nothing
  on exact values, and the bias row is repeated down the 512 rows.
-/
import proofs.«125964_g2000503857293157_pallasbulk_48_9_alg».proof.Proof.Gen.KernelIdeal.Skeleton
import proofs.«125964_g2000503857293157_pallasbulk_48_9_alg».proof.Proof.LibMatmulT
import proofs.«125964_g2000503857293157_pallasbulk_48_9_alg».proof.Proof.Spec
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx Cert.MlpSpec

/-- The first product's dimension record: rows of X against rows of A. -/
theorem dot1_eq : dot_S512x1024_S4096x1024_S512x4096_1_1_0_0_n_n = DotDims.transposedRhs 512 1024 4096 := rfl

/-- The second product's dimension record: rows of the hidden block against rows of B. -/
theorem dot2_eq : dot_S512x4096_S1024x4096_S512x1024_1_1_0_0_n_n = DotDims.transposedRhs 512 4096 1024 := rfl

/-- Entry (p, q) of the block the body stores. -/
theorem pay_apply (x0 : Vec Ideal S512x1024 .f32) (x1 : Vec Ideal S4096x1024 .bf16) (x2 : Vec Ideal S1024x4096 .bf16)
    (x3 : Vec Ideal S1x1024 .f32) (p : Fin 512) (q : Fin 1024) :
    k0_pay1 (F := Ideal) x0 x1 x2 x3 (ix2 p q)
      = half * Ideal.tanh ((∑ k : Fin 4096, Ideal.tanh (∑ j : Fin 1024, x0 (ix2 p j) * x1 (ix2 k j)) * x2 (ix2 q k))
          + x3 (ix2 (0 : Fin 1) q)) + half := by
  unfold k0_pay1
  rw [shapeCast_self, shapeCast_self, shapeCast_self]
  show half * Ideal.tanh (FloatOps.matmul (F := Ideal) _ none _ x2 _ (ix2 p q) + broadcastTo S512x1024 x3 _ (ix2 p q)) + half = _
  rw [dot2_eq, LibMatmulT.matmul_transposedRhs_zero_apply, broadcastTo_1b_ab_apply]
  refine congrArg (fun z => half * Ideal.tanh (z + x3 (ix2 (0 : Fin 1) q)) + half) (Finset.sum_congr rfl fun k _ => ?_)
  show Ideal.tanh (FloatOps.matmul (F := Ideal) _ none _ x1 _ (ix2 p k)) * _ = _
  rw [dot1_eq, LibMatmulT.matmul_transposedRhs_zero_apply]
  rfl

end Cert.KernelIdeal.Hand

end
-- ==== Proof.KernelHost.lean ====
/-
  The three arrays the folded network prepares before its blocks run, read at an entry, in terms of the weights as given:
  the first-layer weights halved, the second-layer weights quartered, and the bias row — a quarter of each row sum of the
  second-layer weights. (The narrowing of the scaled weights to a shorter format changes nothing on exact values.)
-/
import proofs.«125964_g2000503857293157_pallasbulk_48_9_alg».proof.Proof.Gen.KernelIdeal.Frame
import proofs.«125964_g2000503857293157_pallasbulk_48_9_alg».proof.Proof.Spec
import Idealize.ShloMosaic.Lib.StableHlo.Run
import Idealize.ShloMosaic.Lib.ValueIdx
import Idealize.ShloMosaic.Lib.ValueLayout
import Idealize.ShloMosaic.Lib.IdealHost

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.MlpSpec

variable (m : (ℓ : Loc nD τ sig) → Buf (Elt Ideal) ℓ)

/-- The three arguments on a core, as arrays of extended reals. -/
abbrev argX (c : Dev nD) : S8192x1024.Idx → EReal := m ((c : Thread nD τ).loc main_arg0)
abbrev argW1 (c : Dev nD) : S4096x1024.Idx → EReal := m ((c : Thread nD τ).loc main_arg1)
abbrev argW2 (c : Dev nD) : S1024x4096.Idx → EReal := m ((c : Thread nD τ).loc main_arg2)

/-- Putting coordinate k back on the summed axis 1 of a row index g gives the entry (g, k). -/
theorem lift_axis1 {a b : Nat} (h : (⟨2, ![a, b]⟩ : Shape).Reduces [1] (⟨1, ![a]⟩ : Shape)) (g : Fin a)
    (k : Fin ((⟨2, ![a, b]⟩ : Shape).size 1)) : h.lift (ix1 g) k = ix2 g (⟨k.val, k.isLt⟩ : Fin b) := by
  funext c; apply Fin.ext
  fin_cases c <;> rfl

/-- The first-layer weights as the blocks find them: every entry halved. -/
theorem V_halfW1 (c : Dev nD) : (V m c main_call0_v2 : S4096x1024.Idx → EReal)
    = truncf .bf16 (mulf (broadcastInDim S4096x1024 ![] bcast_S_S4096x1024 (constant (F := Ideal) S_ .f32 0x3F000000#32))
        (argW1 m c)) bitsLt_bf16_f32 := by
  dsimp only [Gen.V, Gen.hostOps0]; after_results; rfl

theorem halfW1_apply (c : Dev nD) (k : Fin 4096) (j : Fin 1024) :
    (V m c main_call0_v2 : S4096x1024.Idx → EReal) (ix2 k j)
      = half * (argW1 m c) (ix2 k j) := by
  rw [V_halfW1, truncf_apply, mulf_apply, broadcastInDim_scalar_apply]
  rfl

/-- The second-layer weights as the blocks find them: every entry quartered. -/
theorem V_quarterW2 (c : Dev nD) : (V m c main_call0_v5 : S1024x4096.Idx → EReal)
    = truncf .bf16 (mulf (broadcastInDim S1024x4096 ![] bcast_S_S1024x4096 (constant (F := Ideal) S_ .f32 0x3E800000#32))
        (argW2 m c)) bitsLt_bf16_f32 := by
  dsimp only [Gen.V, Gen.hostOps0]; after_results; rfl

theorem quarterW2_apply (c : Dev nD) (q : Fin 1024) (k : Fin 4096) :
    (V m c main_call0_v5 : S1024x4096.Idx → EReal) (ix2 q k)
      = quarter * (argW2 m c) (ix2 q k) := by
  rw [V_quarterW2, truncf_apply, mulf_apply, broadcastInDim_scalar_apply]
  rfl

/-- The bias row as the blocks find it: a quarter of the row sums of the second-layer weights, laid out as one row. -/
theorem V_bias (c : Dev nD) : (V m c main_call0_v9 : S1x1024.Idx → EReal)
    = shapeCast S1x1024 (mulf (broadcastInDim S1024 ![] bcast_S_S1024 (constant (F := Ideal) S_ .f32 0x3E800000#32))
        (Host.reduceAdd (argW2 m c) (constant (F := Ideal) S_ .f32 0x00000000#32)
          reducesTo_S1024x4096_S1024_d1 h_S_)) shapeCasts_S1024_S1x1024 := by
  dsimp only [Gen.V, Gen.hostOps0]; after_results; rfl

theorem bias_apply (c : Dev nD) (q : Fin 1024) :
    (V m c main_call0_v9 : S1x1024.Idx → EReal) (ix2 (0 : Fin 1) q)
      = quarter * ∑ k : Fin 4096, (argW2 m c) (ix2 q k) := by
  rw [V_bias, shapeCast_a_1a_apply, mulf_apply, broadcastInDim_scalar_apply, hostReduceAdd_apply,
    Ideal.hostReduceAdd_single _ (by decide : S1024x4096.Reduces [1] S1024)]
  show quarter * (Ideal.ofBits .f32 0x00000000#32 + ∑ k : Fin 4096, _) = _
  rw [Ideal.ofBits_zero_f32, zero_add]
  refine congrArg _ (Finset.sum_congr rfl fun k _ => ?_)
  exact congrArg (argW2 m c) (lift_axis1 (a := 1024) (b := 4096) _ q k)

end Cert.KernelIdeal.Hand

end
-- ==== Proof.KernelArray.lean ====
/-
  The folded network's whole result array.

  The grid has 16 points; point t takes rows 512·t … 512·t + 511 of the input, the whole of the three prepared arrays, and
  writes rows 512·t … 512·t + 511 of the result. So entry (r, q) of the result depends on row r of the input, on all of the
  first-layer weights and on row q of the second-layer weights, and is the folded entry of those; the 16 row blocks tile the result.
-/
import proofs.«125964_g2000503857293157_pallasbulk_48_9_alg».proof.Proof.Gen.KernelIdeal.Value
import proofs.«125964_g2000503857293157_pallasbulk_48_9_alg».proof.Proof.KernelBlock
import proofs.«125964_g2000503857293157_pallasbulk_48_9_alg».proof.Proof.KernelHost

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.MlpSpec

variable (m : (ℓ : Loc nD τ sig) → Buf (Elt Ideal) ℓ) (ρ : Dev nD → PrngReg)

theorem hz : (![0, 0] : Fin 2 → Nat) = fun _ => 0 := funext fun a => by fin_cases a <;> rfl

/-- The network's result from the three arguments: entry (r, q) is the folded entry of input row r, the first-layer
    weights, and row q of the second-layer weights. -/
def foldedArray (X : S8192x1024.Idx → EReal) (W1 : S4096x1024.Idx → EReal) (W2 : S1024x4096.Idx → EReal) :
    S8192x1024.Idx → EReal := fun i =>
  foldedEntry (fun j : Fin 1024 => X (ix2 (i 0) j)) (fun (k : Fin 4096) (j : Fin 1024) => W1 (ix2 k j))
    (fun k : Fin 4096 => W2 (ix2 (i 1 : Fin 1024) k))

/-- One entry of a stored block is the folded entry, given what the four loaded blocks hold in terms of the arguments:
    the input block's row is a row of the input, the two weight blocks are the scaled weights, the bias block is the
    quartered row sums. -/
theorem block_entry (x0 : Vec Ideal S512x1024 .f32) (x1 : Vec Ideal S4096x1024 .bf16) (x2 : Vec Ideal S1024x4096 .bf16)
    (x3 : Vec Ideal S1x1024 .f32) (y : S512x1024.Idx) (X : S8192x1024.Idx → EReal) (W1 : S4096x1024.Idx → EReal)
    (W2 : S1024x4096.Idx → EReal) (i : S8192x1024.Idx) (hi : (i 1).val = (y 1).val)
    (h0 : ∀ (a : S512x1024.Idx) (b : S8192x1024.Idx), (a 0).val = (y 0).val → (b 0).val = (i 0).val → (b 1).val = (a 1).val → x0 a = X b)
    (h1 : ∀ a : S4096x1024.Idx, x1 a = half * W1 a)
    (h2 : ∀ a : S1024x4096.Idx, x2 a = quarter * W2 a)
    (h3 : ∀ (a : S1x1024.Idx) (q : Fin 1024), (a 1).val = q.val → x3 a = quarter * ∑ k : Fin 4096, W2 (ix2 q k)) :
    k0_pay1 (F := Ideal) x0 x1 x2 x3 y = foldedArray X W1 W2 i := by
  obtain ⟨p, q, rfl⟩ : ∃ (p : Fin 512) (q : Fin 1024), y = ix2 p q := ⟨y 0, y 1, eq_ix2 y⟩
  obtain ⟨r, s, rfl⟩ : ∃ (r : Fin 8192) (s : Fin 1024), i = ix2 r s := ⟨i 0, i 1, eq_ix2 i⟩
  obtain rfl : s = q := Fin.ext hi
  have h0' : ∀ j : Fin 1024, x0 (ix2 p j) = X (ix2 r j) := fun j => h0 _ _ rfl rfl rfl
  have h3' : x3 (ix2 (0 : Fin 1) s) = quarter * ∑ k : Fin 4096, W2 (ix2 s k) := h3 _ s rfl
  rw [pay_apply]
  simp only [h0', h1, h2, h3']
  rfl

/-- The printed index maps over the grid: the input and the result move one row block per point, the prepared arrays stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT t WRITES BACK is block t of the folded array of the arguments. -/
theorem flushed_eq (c : Dev nD) (t : Fin cfg0.N) :
    (dats m 0 c).flushed 4 t = ((cfg0.win 4).blk t).view.read (Elt Ideal) (foldedArray (argX m c) (argW1 m c) (argW2 m c)) := by
  rw [flushed4]
  unfold out0_4
  rw [View.canon_unit_zero hz]
  simp only [View.ld_unit_zero (S := S512x1024) hz, View.ld_unit_zero (S := S4096x1024) hz, View.ld_unit_zero (S := S1024x4096) hz,
    View.ld_unit_zero (S := S1x1024) hz]
  obtain ⟨e00, e01, e10, e11, e20, e21, e30, e31, e40, e41⟩ := idx_facts t
  funext y
  show k0_pay1 (F := Ideal) (iblk m c 0 t) (iblk m c 1 t) (iblk m c 2 t) (iblk m c 3 t) y
    = foldedArray (argX m c) (argW1 m c) (argW2 m c) (((cfg0.win 4).blk t).view.emb y)
  refine block_entry (iblk m c 0 t) (iblk m c 1 t) (iblk m c 2 t) (iblk m c 3 t) y (argX m c) (argW1 m c) (argW2 m c)
    (((cfg0.win 4).blk t).view.emb y) ?_ ?_ ?_ ?_ ?_
  · show win0_4.index t (1 : Fin 2) * 1024 + 1 * (y 1).val = (y 1).val
    omega
  · intro a b ha hb hab
    have hb' : (b 0).val = win0_4.index t (0 : Fin 2) * 512 + 1 * (y 0).val := hb
    refine (congrFun (V_main_arg0 m c) (((cfg0.win 0).blk t).view.emb a)).trans (congrArg (argX m c) ?_)
    funext d; apply Fin.ext
    match d with
    | ⟨0, _⟩ => show win0_0.index t (0 : Fin 2) * 512 + 1 * (a 0).val = (b 0).val; omega
    | ⟨1, _⟩ => show win0_0.index t (1 : Fin 2) * 1024 + 1 * (a 1).val = (b 1).val; omega
  · intro a
    obtain ⟨k, j, rfl⟩ : ∃ (k : Fin 4096) (j : Fin 1024), a = ix2 k j := ⟨a 0, a 1, eq_ix2 a⟩
    refine (congrArg (V m c main_call0_v2 : S4096x1024.Idx → EReal) ?_).trans (halfW1_apply m c k j)
    funext d; apply Fin.ext
    match d with
    | ⟨0, _⟩ => show win0_1.index t (0 : Fin 2) * 4096 + 1 * k.val = k.val; omega
    | ⟨1, _⟩ => show win0_1.index t (1 : Fin 2) * 1024 + 1 * j.val = j.val; omega
  · intro a
    obtain ⟨q, k, rfl⟩ : ∃ (q : Fin 1024) (k : Fin 4096), a = ix2 q k := ⟨a 0, a 1, eq_ix2 a⟩
    refine (congrArg (V m c main_call0_v5 : S1024x4096.Idx → EReal) ?_).trans (quarterW2_apply m c q k)
    funext d; apply Fin.ext
    match d with
    | ⟨0, _⟩ => show win0_2.index t (0 : Fin 2) * 1024 + 1 * q.val = q.val; omega
    | ⟨1, _⟩ => show win0_2.index t (1 : Fin 2) * 4096 + 1 * k.val = k.val; omega
  · intro a q ha
    obtain ⟨z, q', rfl⟩ : ∃ (z : Fin 1) (q' : Fin 1024), a = ix2 z q' := ⟨a 0, a 1, eq_ix2 a⟩
    obtain rfl : q' = q := Fin.ext ha
    obtain rfl : z = 0 := Subsingleton.elim _ _
    refine (congrArg (V m c main_call0_v9 : S1x1024.Idx → EReal) ?_).trans (bias_apply m c q')
    funext d; apply Fin.ext
    match d with
    | ⟨0, _⟩ => show win0_3.index t (0 : Fin 2) * 1 + 1 * 0 = 0; omega
    | ⟨1, _⟩ => show win0_3.index t (1 : Fin 2) * 1024 + 1 * q'.val = q'.val; omega

/-- An index of the result is in point t's block iff each coordinate is in the block's range on its axis. -/
theorem mem_blk (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v0).slice (win0_4.rect t)).set ↔ _
  rw [View.set_slice_whole, Rect.mem_set_unit]
  exact Iff.rfl

/-- Every row block of the result is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-- The 16 row blocks tile the result: row r is in the block of the point with index r / 512. -/
theorem cover (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-- THE RESULT ARRAY after the run is the folded array of the arguments. -/
theorem final (c : Dev nD) : (dats m 0 c).arrAt 4 cfg0.N = foldedArray (argX m c) (argW1 m c) (argW2 m c) :=
  (dats m 0 c).arrAt_eq_of_cover 4 (foldedArray (argX m c) (argW1 m c) (argW2 m c)) (fun t _ => flushed_eq m c t) cover

/-- The run, read: the result at the folded array of the arguments, the arguments unchanged. -/
theorem run : θ_run defs (onTc (τ := τ) (main (F := Ideal))) ⟨m, fun _ => 0, ρ⟩ fun r => ∀ c : Dev nD,
      r.2.mem ((c : Thread nD τ).loc main_v0) = foldedArray (argX m c) (argW1 m c) (argW2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.RefBlock.lean ====
/-
  What the two-sigmoid network's body computes for one block of rows, read at one entry.

  The body takes a block X of 512 input rows and the two weight matrices already transposed, C (1024 × 4096) and D (4096 × 1024).
  With σ(z) = ½ · tanh(½ · z) + ½, entry (p, q) of what it stores is  σ(∑ₖ σ(∑ⱼ X(p,j) · C(j,k)) · D(k,q)) :
  two plain row-by-column products with a sigmoid after each.
-/
import proofs.«125964_g2000503857293157_pallasbulk_48_9_alg».proof.Proof.Gen.ReferenceIdeal.Skeleton
import proofs.«125964_g2000503857293157_pallasbulk_48_9_alg».proof.Proof.LibMatmul
import proofs.«125964_g2000503857293157_pallasbulk_48_9_alg».proof.Proof.Spec
import Idealize.ShloMosaic.Lib.ValueIdx
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx Cert.MlpSpec

/-- The first product's dimension record: rows of X against columns of C. -/
theorem dot1_eq : dot_S512x1024_S1024x4096_S512x4096_1_0_0_1_n_n = DotDims.plain 512 1024 4096 := rfl

/-- The second product's dimension record: rows of the hidden block against columns of D. -/
theorem dot2_eq : dot_S512x4096_S4096x1024_S512x1024_1_0_0_1_n_n = DotDims.plain 512 4096 1024 := rfl

/-- Entry (p, q) of the block the body stores. -/
theorem pay_apply (x0 : Vec Ideal S512x1024 .f32) (x1 : Vec Ideal S1024x4096 .f32) (x2 : Vec Ideal S4096x1024 .f32)
    (p : Fin 512) (q : Fin 1024) :
    k0_pay1 (F := Ideal) x0 x1 x2 (ix2 p q)
      = half * Ideal.tanh (half * ∑ k : Fin 4096,
          (half * Ideal.tanh (half * ∑ j : Fin 1024, x0 (ix2 p j) * x1 (ix2 j k)) + half) * x2 (ix2 k q)) + half := by
  unfold k0_pay1
  rw [shapeCast_self, shapeCast_self]
  show half * Ideal.tanh (half * FloatOps.matmul (F := Ideal) _ none _ x2 _ (ix2 p q)) + half = _
  rw [dot2_eq, LibMatmul.matmul_plain_zero_apply]
  refine congrArg (fun z => half * Ideal.tanh (half * z) + half) (Finset.sum_congr rfl fun k _ => ?_)
  show (half * Ideal.tanh (half * FloatOps.matmul (F := Ideal) _ none x0 x1 _ (ix2 p k)) + half) * _ = _
  rw [dot1_eq, LibMatmul.matmul_plain_zero_apply]

end Cert.ReferenceIdeal.Hand

end
-- ==== Proof.RefHost.lean ====
/-
  The two arrays the two-sigmoid network prepares before its blocks run: the weight matrices transposed. Read at an entry,
  the transposed first-layer weights at (j, k) are the given ones at (k, j), and likewise for the second layer.
-/
import proofs.«125964_g2000503857293157_pallasbulk_48_9_alg».proof.Proof.Gen.ReferenceIdeal.Frame
import Idealize.ShloMosaic.Lib.StableHlo.Run
import Idealize.ShloMosaic.Lib.ValueIdx
import Idealize.ShloMosaic.Lib.ValueLayout

noncomputable section

namespace Cert.ReferenceIdeal.Hand

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ)

/-- The three arguments on a core, as arrays of extended reals. -/
abbrev argX (c : Dev nD) : S8192x1024.Idx → EReal := m ((c : Thread nD τ).loc main_arg0)
abbrev argW1 (c : Dev nD) : S4096x1024.Idx → EReal := m ((c : Thread nD τ).loc main_arg1)
abbrev argW2 (c : Dev nD) : S1024x4096.Idx → EReal := m ((c : Thread nD τ).loc main_arg2)

/-- The first-layer weights as the blocks find them: transposed. -/
theorem V_w1T (c : Dev nD) : (V m c main_v0 : S1024x4096.Idx → EReal)
    = transpose S1024x4096 [1, 0] (argW1 m c) transposes_S4096x1024_S1024x4096_1_0 := by
  dsimp only [Gen.V, Gen.hostOps0]; after_results

theorem w1T_apply (c : Dev nD) (j : Fin 1024) (k : Fin 4096) :
    (V m c main_v0 : S1024x4096.Idx → EReal) (ix2 j k) = argW1 m c (ix2 k j) := by
  rw [V_w1T, transpose_ix2_apply]

/-- The second-layer weights as the blocks find them: transposed. -/
theorem V_w2T (c : Dev nD) : (V m c main_v1 : S4096x1024.Idx → EReal)
    = transpose S4096x1024 [1, 0] (argW2 m c) transposes_S1024x4096_S4096x1024_1_0 := by
  dsimp only [Gen.V, Gen.hostOps0]; after_results

theorem w2T_apply (c : Dev nD) (k : Fin 4096) (q : Fin 1024) :
    (V m c main_v1 : S4096x1024.Idx → EReal) (ix2 k q) = argW2 m c (ix2 q k) := by
  rw [V_w2T, transpose_ix2_apply]

end Cert.ReferenceIdeal.Hand

end
-- ==== Proof.RefArray.lean ====
/-
  The two-sigmoid network's whole result array.

  The grid has 16 points; point t takes rows 512·t … 512·t + 511 of the input and the whole of the two transposed weight
  arrays, and writes rows 512·t … 512·t + 511 of the result. So entry (r, q) of the result is the two-sigmoid entry of row r
  of the input, all of the first-layer weights and row q of the second-layer weights; the 16 row blocks tile the result.
-/
import proofs.«125964_g2000503857293157_pallasbulk_48_9_alg».proof.Proof.Gen.ReferenceIdeal.Value
import proofs.«125964_g2000503857293157_pallasbulk_48_9_alg».proof.Proof.RefBlock
import proofs.«125964_g2000503857293157_pallasbulk_48_9_alg».proof.Proof.RefHost

noncomputable section

open scoped BigOperators

namespace Cert.ReferenceIdeal.Hand

open Cert.ReferenceIdeal Cert.ReferenceIdeal.Gen Cert.ReferenceIdeal.Value Idealize.ShloMosaic Idealize.ShloMosaic.TcCoe Idealize.SL.Sem
open Idealize.ShloMosaic.Pipeline (Dat)
open Idealize.ShloMosaic.ValueIdx Cert.MlpSpec

variable (m : (ℓ : Loc nD τ sig) → Buf (Elt Ideal) ℓ) (ρ : Dev nD → PrngReg)

theorem hz : (![0, 0] : Fin 2 → Nat) = fun _ => 0 := funext fun a => by fin_cases a <;> rfl

/-- The network's result from the three arguments: entry (r, q) is the two-sigmoid entry of input row r, the first-layer
    weights, and row q of the second-layer weights. -/
def sigmoidArray (X : S8192x1024.Idx → EReal) (W1 : S4096x1024.Idx → EReal) (W2 : S1024x4096.Idx → EReal) :
    S8192x1024.Idx → EReal := fun i =>
  sigmoidEntry (fun j : Fin 1024 => X (ix2 (i 0) j)) (fun (k : Fin 4096) (j : Fin 1024) => W1 (ix2 k j))
    (fun k : Fin 4096 => W2 (ix2 (i 1 : Fin 1024) k))

/-- One entry of a stored block is the two-sigmoid entry, given what the three loaded blocks hold in terms of the arguments:
    the input block's row is a row of the input, the two weight blocks are the weights transposed. -/
theorem block_entry (x0 : Vec Ideal S512x1024 .f32) (x1 : Vec Ideal S1024x4096 .f32) (x2 : Vec Ideal S4096x1024 .f32)
    (y : S512x1024.Idx) (X : S8192x1024.Idx → EReal) (W1 : S4096x1024.Idx → EReal)
    (W2 : S1024x4096.Idx → EReal) (i : S8192x1024.Idx) (hi : (i 1).val = (y 1).val)
    (h0 : ∀ (a : S512x1024.Idx) (b : S8192x1024.Idx), (a 0).val = (y 0).val → (b 0).val = (i 0).val → (b 1).val = (a 1).val → x0 a = X b)
    (h1 : ∀ (j : Fin 1024) (k : Fin 4096), x1 (ix2 j k) = W1 (ix2 k j))
    (h2 : ∀ (k : Fin 4096) (q : Fin 1024), x2 (ix2 k q) = W2 (ix2 q k)) :
    k0_pay1 (F := Ideal) x0 x1 x2 y = sigmoidArray X W1 W2 i := by
  obtain ⟨p, q, rfl⟩ : ∃ (p : Fin 512) (q : Fin 1024), y = ix2 p q := ⟨y 0, y 1, eq_ix2 y⟩
  obtain ⟨r, s, rfl⟩ : ∃ (r : Fin 8192) (s : Fin 1024), i = ix2 r s := ⟨i 0, i 1, eq_ix2 i⟩
  obtain rfl : s = q := Fin.ext hi
  have h0' : ∀ j : Fin 1024, x0 (ix2 p j) = X (ix2 r j) := fun j => h0 _ _ rfl rfl rfl
  rw [pay_apply]
  simp only [h0', h1, h2]
  rfl

/-- The printed index maps over the grid: the input and the result move one row block per point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the two-sigmoid array of the arguments. -/
theorem flushed_eq (c : Dev nD) (t : Fin cfg0.N) :
    (dats m 0 c).flushed 3 t = ((cfg0.win 3).blk t).view.read (Elt Ideal) (sigmoidArray (argX m c) (argW1 m c) (argW2 m c)) := by
  rw [flushed3]
  unfold out0_3
  rw [View.canon_unit_zero hz]
  simp only [View.ld_unit_zero (S := S512x1024) hz, View.ld_unit_zero (S := S4096x1024) hz, View.ld_unit_zero (S := S1024x4096) hz]
  obtain ⟨e00, e01, e10, e11, e20, e21, e30, e31⟩ := idx_facts t
  funext y
  show k0_pay1 (F := Ideal) (iblk m c 0 t) (iblk m c 1 t) (iblk m c 2 t) y
    = sigmoidArray (argX m c) (argW1 m c) (argW2 m c) (((cfg0.win 3).blk t).view.emb y)
  refine block_entry (iblk m c 0 t) (iblk m c 1 t) (iblk m c 2 t) y (argX m c) (argW1 m c) (argW2 m c)
    (((cfg0.win 3).blk t).view.emb y) ?_ ?_ ?_ ?_
  · show win0_3.index t (1 : Fin 2) * 1024 + 1 * (y 1).val = (y 1).val
    omega
  · intro a b ha hb hab
    have hb' : (b 0).val = win0_3.index t (0 : Fin 2) * 512 + 1 * (y 0).val := hb
    refine (congrFun (V_main_arg0 m c) (((cfg0.win 0).blk t).view.emb a)).trans (congrArg (argX m c) ?_)
    funext d; apply Fin.ext
    match d with
    | ⟨0, _⟩ => show win0_0.index t (0 : Fin 2) * 512 + 1 * (a 0).val = (b 0).val; omega
    | ⟨1, _⟩ => show win0_0.index t (1 : Fin 2) * 1024 + 1 * (a 1).val = (b 1).val; omega
  · intro j k
    refine (congrArg (V m c main_v0 : S1024x4096.Idx → EReal) ?_).trans (w1T_apply m c j k)
    funext d; apply Fin.ext
    match d with
    | ⟨0, _⟩ => show win0_1.index t (0 : Fin 2) * 1024 + 1 * j.val = j.val; omega
    | ⟨1, _⟩ => show win0_1.index t (1 : Fin 2) * 4096 + 1 * k.val = k.val; omega
  · intro k q
    refine (congrArg (V m c main_v1 : S4096x1024.Idx → EReal) ?_).trans (w2T_apply m c k q)
    funext d; apply Fin.ext
    match d with
    | ⟨0, _⟩ => show win0_2.index t (0 : Fin 2) * 4096 + 1 * k.val = k.val; omega
    | ⟨1, _⟩ => show win0_2.index t (1 : Fin 2) * 1024 + 1 * q.val = q.val; omega

/-- An index of the result is in point t's block iff each coordinate is in the block's range on its axis. -/
theorem mem_blk (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2).slice (win0_3.rect t)).set ↔ _
  rw [View.set_slice_whole, Rect.mem_set_unit]
  exact Iff.rfl

/-- Every row block of the result is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- The 16 row blocks tile the result: row r is in the block of the point with index r / 512. -/
theorem cover (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- THE RESULT ARRAY after the run is the two-sigmoid array of the arguments. -/
theorem final (c : Dev nD) : (dats m 0 c).arrAt 3 cfg0.N = sigmoidArray (argX m c) (argW1 m c) (argW2 m c) :=
  (dats m 0 c).arrAt_eq_of_cover 3 (sigmoidArray (argX m c) (argW1 m c) (argW2 m c)) (fun t _ => flushed_eq m c t) cover

/-- The run, read: the result at the two-sigmoid array of the arguments, the arguments unchanged. -/
theorem run : θ_run defs (onTc (τ := τ) (main (F := Ideal))) ⟨m, fun _ => 0, ρ⟩ fun r => ∀ c : Dev nD,
      r.2.mem ((c : Thread nD τ).loc main_v2) = sigmoidArray (argX m c) (argW1 m c) (argW2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.ReferenceIdeal.Hand

end
-- ==== Proof.lean ====
/-
  The folded network equals the two-sigmoid network on finite data.

  Both programs compute, for an input x (8192 × 1024) and weights w₁ (4096 × 1024), w₂ (1024 × 4096), the array
  σ(σ(x · w₁ᵀ) · w₂ᵀ) with σ(z) = ½ · tanh(½ · z) + ½, sixteen blocks of 512 rows at a time.
  One keeps the two sigmoids and transposes the weights first. The other halves w₁ and quarters w₂ beforehand, contracts
  against the untransposed weights, and adds a bias row ¼ · ∑ₖ w₂(q,k); over exact values (where changing the number format is
  the identity) its entry (r, q) is ½ · tanh(∑ₖ tanh(∑ⱼ x(r,j) · ½w₁(k,j)) · ¼w₂(q,k) + ¼ ∑ₖ w₂(q,k)) + ½.
  The two entries agree by distributivity, which holds because the precondition makes every input entry a real number.
  No operation of the first program is rewritten in its exact reading, so that reading is the program's own text.
-/
import proofs.«125964_g2000503857293157_pallasbulk_48_9_alg».proof.Defs
import proofs.«125964_g2000503857293157_pallasbulk_48_9_alg».proof.Proof.Gen.Kernel
import proofs.«125964_g2000503857293157_pallasbulk_48_9_alg».proof.Proof.Gen.Kernel.Frame
import proofs.«125964_g2000503857293157_pallasbulk_48_9_alg».proof.Proof.Gen.KernelIdeal
import proofs.«125964_g2000503857293157_pallasbulk_48_9_alg».proof.Proof.Gen.KernelIdeal.Frame
import proofs.«125964_g2000503857293157_pallasbulk_48_9_alg».proof.Proof.Gen.ReferenceIdeal
import proofs.«125964_g2000503857293157_pallasbulk_48_9_alg».proof.Proof.Gen.ReferenceIdeal.Frame
import proofs.«125964_g2000503857293157_pallasbulk_48_9_alg».proof.Proof.Gen.Pre_finite_inputs
import proofs.«125964_g2000503857293157_pallasbulk_48_9_alg».proof.Proof.Spec
import proofs.«125964_g2000503857293157_pallasbulk_48_9_alg».proof.Proof.Finite
import proofs.«125964_g2000503857293157_pallasbulk_48_9_alg».proof.Proof.KernelArray
import proofs.«125964_g2000503857293157_pallasbulk_48_9_alg».proof.Proof.RefArray
import Idealize.ShloMosaic.Adequacy
import Idealize.ShloMosaic.Init

noncomputable section

namespace Cert.Proof

open Idealize.ShloMosaic Idealize.ShloMosaic.TcCoe Idealize.SL.Sem

/-- On arguments that agree and are finite, the folded program's result array and the two-sigmoid program's are equal,
    entry by entry: each array is its own form of the entry at every index, and the two forms agree on real data. -/
theorem algebraic : Cert.algebraic_KernelIdeal_ReferenceIdeal := by
  intro m ρ m' ρ' hpre hagree
  refine ⟨fun c => Cert.KernelIdeal.Hand.foldedArray (Cert.KernelIdeal.Hand.argX m c) (Cert.KernelIdeal.Hand.argW1 m c)
    (Cert.KernelIdeal.Hand.argW2 m c), Cert.KernelIdeal.Hand.run m ρ, ?_⟩
  refine (θ_run Cert.ReferenceIdeal.defs _ _).mono (fun r h c => ⟨(h c).1.trans ?_, (h c).2⟩) (Cert.ReferenceIdeal.Hand.run m' ρ')
  obtain ⟨hx, hw1, hw2⟩ := Cert.Pre_finite_inputs.Hand.finite_of_pre _ _ _ (hpre c)
  obtain ⟨a0, a1, a2⟩ := hagree c
  funext i
  show Cert.MlpSpec.sigmoidEntry _ _ _ = Cert.MlpSpec.foldedEntry _ _ _
  unfold Cert.ReferenceIdeal.Hand.argX Cert.ReferenceIdeal.Hand.argW1 Cert.ReferenceIdeal.Hand.argW2
  rw [a0, a1, a2]
  exact (Cert.MlpSpec.folded_eq_sigmoid _ _ _ (fun j => hx _) (fun k j => hw1 _) (fun k => hw2 _)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
